-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x64 .f32) (main_arg1 : IVec S2x800000 32) (main_arg2 : FVec F S800000 .f32) (main_arg3 : FVec F S64x64 .f32) (main_arg4 : FVec F S64 .f32) (main_arg5 : FVec F S64x64 .f32) (main_arg6 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S1x50000 : Shape := ⟨2, ![1, 50000]⟩
abbrev S5000x64 : Shape := ⟨2, ![5000, 64]⟩
abbrev S1x64 : Shape := ⟨2, ![1, 64]⟩
abbrev S800000x64 : Shape := ⟨2, ![800000, 64]⟩

abbrev nBuf : Space → Nat
  | .hbm => 100
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S1x50000, .f32⟩
  | .hbm, ⟨16, _⟩ => ⟨S1x50000, .f32⟩
  | .hbm, ⟨17, _⟩ => ⟨S50000, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000, .f32⟩
  | .hbm, ⟨27, _⟩ => ⟨S800000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000, .f32⟩
  | .hbm, ⟨37, _⟩ => ⟨S800000, .f32⟩
  | .hbm, ⟨38, _⟩ => ⟨S50000x64, .f32⟩
  | .hbm, ⟨39, _⟩ => ⟨S800000x1, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x64, .f32⟩
  | .hbm, ⟨49, _⟩ => ⟨S800000x64, .f32⟩
  | .hbm, ⟨50, _⟩ => ⟨S800000x64, .f32⟩
  | .hbm, ⟨51, _⟩ => ⟨S_, .f32⟩
  | .hbm, ⟨52, _⟩ => ⟨S50000x64, .f32⟩
  | .hbm, ⟨53, _⟩ => ⟨S800000x1, .i32⟩
  | .hbm, ⟨54, _⟩ => ⟨S50000x64, .f32⟩
  | .hbm, ⟨55, _⟩ => ⟨S50000x64, .f32⟩
  | .hbm, ⟨56, _⟩ => ⟨S_, .f32⟩
  | .hbm, ⟨57, _⟩ => ⟨S50000, .f32⟩
  | .hbm, ⟨58, _⟩ => ⟨S800000x1, .i32⟩
  | .hbm, ⟨59, _⟩ => ⟨S50000, .f32⟩
  | .hbm, ⟨60, _⟩ => ⟨S1x50000, .f32⟩
  | .hbm, ⟨61, _⟩ => ⟨S1x50000, .f32⟩
  | .hbm, ⟨62, _⟩ => ⟨S50000, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000, .f32⟩
  | .hbm, ⟨72, _⟩ => ⟨S800000, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000, .f32⟩
  | .hbm, ⟨82, _⟩ => ⟨S800000, .f32⟩
  | .hbm, ⟨83, _⟩ => ⟨S50000x64, .f32⟩
  | .hbm, ⟨84, _⟩ => ⟨S800000x1, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000x64, .f32⟩
  | .hbm, ⟨94, _⟩ => ⟨S800000x64, .f32⟩
  | .hbm, ⟨95, _⟩ => ⟨S800000x64, .f32⟩
  | .hbm, ⟨96, _⟩ => ⟨S_, .f32⟩
  | .hbm, ⟨97, _⟩ => ⟨S50000x64, .f32⟩
  | .hbm, ⟨98, _⟩ => ⟨S800000x1, .i32⟩
  | .hbm, ⟨99, _⟩ => ⟨S50000x64, .f32⟩
  | .local _ .vmem, ⟨0, _⟩ => ⟨S1x50000, .f32⟩
  | .local _ .vmem, ⟨1, _⟩ => ⟨S1x50000, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S1x50000, .f32⟩
  | .local _ .vmem, ⟨13, _⟩ => ⟨S1x50000, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_7 : Ref sig .tc := ⟨.hbm, 63, rfl⟩
abbrev main_v47 : Ref sig .tc := ⟨.hbm, 64, rfl⟩
abbrev main_v48 : Ref sig .tc := ⟨.hbm, 65, rfl⟩
abbrev main_c_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_9 : Ref sig .tc := ⟨.hbm, 73, rfl⟩
abbrev main_v55 : Ref sig .tc := ⟨.hbm, 74, rfl⟩
abbrev main_v56 : Ref sig .tc := ⟨.hbm, 75, rfl⟩
abbrev main_c_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_c_11 : Ref sig .tc := ⟨.hbm, 85, rfl⟩
abbrev main_v65 : Ref sig .tc := ⟨.hbm, 86, rfl⟩
abbrev main_v66 : Ref sig .tc := ⟨.hbm, 87, rfl⟩
abbrev main_c_12 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_13 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg3_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg1_0 : Ref sig .tc := ⟨.vmem, 13, rfl⟩
abbrev cc4_stg0_0 : Ref sig .tc := ⟨.vmem, 14, rfl⟩
abbrev cc4_stg0_1 : Ref sig .tc := ⟨.vmem, 15, rfl⟩
abbrev cc4_stg1_0 : Ref sig .tc := ⟨.vmem, 16, rfl⟩
abbrev cc4_stg2_0 : Ref sig .tc := ⟨.vmem, 17, rfl⟩
abbrev cc4_stg3_0 : Ref sig .tc := ⟨.vmem, 18, rfl⟩
abbrev cc4_stg3_1 : Ref sig .tc := ⟨.vmem, 19, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem3_0 : DmaSem sig := 6
abbrev cc1_sem3_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem1_0 : DmaSem sig := 13
abbrev cc4_sem0_0 : DmaSem sig := 14
abbrev cc4_sem0_1 : DmaSem sig := 15
abbrev cc4_sem1_0 : DmaSem sig := 16
abbrev cc4_sem2_0 : DmaSem sig := 17
abbrev cc4_sem3_0 : DmaSem sig := 18
abbrev cc4_sem3_1 : DmaSem sig := 19

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x50000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x50000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1x50000 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1x50000 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S1x50000 : S50000.ShapeCasts S1x50000
  inb_S1x50000_S1x50000_0_0 : ∀ a, (![0, 0] : Fin 2 → Nat) a + S1x50000.size a ≤ S1x50000.size a
  h_S1x50000 : 0 < S1x50000.numel
  shapeCasts_S1x50000_S1x50000 : S1x50000.ShapeCasts S1x50000
  shapeCasts_S1x50000_S50000 : S1x50000.ShapeCasts S50000
  bcast_S_S800000 : S_.BroadcastsInDim S800000 (![] : Fin 0 → Fin S800000.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S5000x64_S5000x64 : S5000x64.ShapeCasts S5000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x50000.size a ≤ S1x50000.size a
  hwx0_0 : ∀ i : grid0.Coords, EltTy.bits .f32 = 32 ∨ (Rect.block (s := S1x50000) S1x50000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x50000.size a ≤ S1x50000.size a
  hwx0_1 : ∀ i : grid0.Coords, EltTy.bits .f32 = 32 ∨ (Rect.block (s := S1x50000) S1x50000.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x50000.size a ≤ S1x50000.size a
  hwx3_0 : ∀ i : grid3.Coords, EltTy.bits .f32 = 32 ∨ (Rect.block (s := S1x50000) S1x50000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x50000.size a ≤ S1x50000.size a
  hwx3_1 : ∀ i : grid3.Coords, EltTy.bits .f32 = 32 ∨ (Rect.block (s := S1x50000) S1x50000.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v7) S1x50000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x50000.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v39) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v44) S1x50000.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v45) S1x50000.size cc3_transform_1 reads3_1 true true 1 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v40) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S1x64 : Shape := ⟨2, ![1, 64]⟩
abbrev S800000x64 : Shape := ⟨2, ![800000, 64]⟩

abbrev nBuf : Space → Nat
  | .hbm => 118
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000, .f32⟩
  | .hbm, ⟨32, _⟩ => ⟨S800000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000, .f32⟩
  | .hbm, ⟨42, _⟩ => ⟨S800000, .f32⟩
  | .hbm, ⟨43, _⟩ => ⟨S50000x64, .f32⟩
  | .hbm, ⟨44, _⟩ => ⟨S1x64, .f32⟩
  | .hbm, ⟨45, _⟩ => ⟨S50000x64, .f32⟩
  | .hbm, ⟨46, _⟩ => ⟨S50000x64, .f32⟩
  | .hbm, ⟨47, _⟩ => ⟨S800000x1, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x64, .f32⟩
  | .hbm, ⟨57, _⟩ => ⟨S800000x64, .f32⟩
  | .hbm, ⟨58, _⟩ => ⟨S800000x64, .f32⟩
  | .hbm, ⟨59, _⟩ => ⟨S_, .f32⟩
  | .hbm, ⟨60, _⟩ => ⟨S50000x64, .f32⟩
  | .hbm, ⟨61, _⟩ => ⟨S800000x1, .i32⟩
  | .hbm, ⟨62, _⟩ => ⟨S50000x64, .f32⟩
  | .hbm, ⟨63, _⟩ => ⟨S_, .f32⟩
  | .hbm, ⟨64, _⟩ => ⟨S50000x64, .f32⟩
  | .hbm, ⟨65, _⟩ => ⟨S50000x64, .f32⟩
  | .hbm, ⟨66, _⟩ => ⟨S_, .f32⟩
  | .hbm, ⟨67, _⟩ => ⟨S50000, .f32⟩
  | .hbm, ⟨68, _⟩ => ⟨S800000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .i1⟩
  | .hbm, ⟨73, _⟩ => ⟨S50000, .f32⟩
  | .hbm, ⟨74, _⟩ => ⟨S_, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000, .f32⟩
  | .hbm, ⟨87, _⟩ => ⟨S800000, .f32⟩
  | .hbm, ⟨88, _⟩ => ⟨S_, .i32⟩
  | .hbm, ⟨89, _⟩ => ⟨S800000, .i32⟩
  | .hbm, ⟨90, _⟩ => ⟨S800000, .i1⟩
  | .hbm, ⟨91, _⟩ => ⟨S_, .i32⟩
  | .hbm, ⟨92, _⟩ => ⟨S800000, .i32⟩
  | .hbm, ⟨93, _⟩ => ⟨S800000, .i32⟩
  | .hbm, ⟨94, _⟩ => ⟨S800000, .i32⟩
  | .hbm, ⟨95, _⟩ => ⟨S800000x1, .i32⟩
  | .hbm, ⟨96, _⟩ => ⟨S800000, .f32⟩
  | .hbm, ⟨97, _⟩ => ⟨S800000, .f32⟩
  | .hbm, ⟨98, _⟩ => ⟨S50000x64, .f32⟩
  | .hbm, ⟨99, _⟩ => ⟨S1x64, .f32⟩
  | .hbm, ⟨100, _⟩ => ⟨S50000x64, .f32⟩
  | .hbm, ⟨101, _⟩ => ⟨S50000x64, .f32⟩
  | .hbm, ⟨102, _⟩ => ⟨S800000x1, .f32⟩
  | .hbm, ⟨103, _⟩ => ⟨S_, .i32⟩
  | .hbm, ⟨104, _⟩ => ⟨S800000, .i32⟩
  | .hbm, ⟨105, _⟩ => ⟨S800000, .i1⟩
  | .hbm, ⟨106, _⟩ => ⟨S_, .i32⟩
  | .hbm, ⟨107, _⟩ => ⟨S800000, .i32⟩
  | .hbm, ⟨108, _⟩ => ⟨S800000, .i32⟩
  | .hbm, ⟨109, _⟩ => ⟨S800000, .i32⟩
  | .hbm, ⟨110, _⟩ => ⟨S800000x1, .i32⟩
  | .hbm, ⟨111, _⟩ => ⟨S800000x64, .f32⟩
  | .hbm, ⟨112, _⟩ => ⟨S800000x64, .f32⟩
  | .hbm, ⟨113, _⟩ => ⟨S800000x64, .f32⟩
  | .hbm, ⟨114, _⟩ => ⟨S_, .f32⟩
  | .hbm, ⟨115, _⟩ => ⟨S50000x64, .f32⟩
  | .hbm, ⟨116, _⟩ => ⟨S800000x1, .i32⟩
  | .hbm, ⟨117, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call1_cst : Ref sig .tc := ⟨.hbm, 63, rfl⟩
abbrev main_call1_v0 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_call2_v0 : Ref sig .tc := ⟨.hbm, 75, rfl⟩
abbrev main_call2_v1 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_c_12 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_15 : Ref sig .tc := ⟨.hbm, 103, rfl⟩
abbrev main_v73 : Ref sig .tc := ⟨.hbm, 104, rfl⟩
abbrev main_v74 : Ref sig .tc := ⟨.hbm, 105, rfl⟩
abbrev main_c_16 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The kernel program's run with its result named.

  The program is eleven segments: six stretches of host operations and, between them, five kernel regions.  The
  buffer contents at the twelve segment boundaries are a fold through the program: a host stretch applies its
  operations to the contents before it, a region replaces its arrays by what its write-backs leave and keeps
  every other buffer.  Every weakly fair execution terminates without a fault, and in its final state every
  buffer that lives to the end holds the last boundary's contents: in particular the result buffer holds the
  last boundary's contents at the result, and the seven argument arrays, which nothing writes, are as launched.
-/
import proofs.«144320_j27118423507684_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result buffer ends at the
    last boundary's contents and the argument arrays end as launched. -/
theorem run_result : θ_run defs (onTc (τ := τ) (main (F := F))) ⟨m, fun _ => 0, ρ⟩ (fun r => ∀ c : Dev nD,
      r.2.mem ((c.tc : Thread nD τ).loc main_v76) = W11 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v76 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)

end Cert.KernelIdeal.Run

end
-- ==== Proof.Fold.lean ====
/-
  The kernel program's buffer contents at its segment boundaries.

  The program computes two graph-convolution layers.  Its host operations cut the edge list into source and target
  indices, sum the edge weights landing on each source node (the degrees), and, per layer, gather the inverse square
  roots of the degrees at both ends of every edge, scale the weights by them, gather the transformed features at the
  sources, scale them and sum them at the targets.  Five kernel regions stand between the host stretches: the inverse
  square root of the degrees (twice), the dense transform of the features (twice) and the rectifier between the layers.

  This module follows the contents of the buffers that are passed from one segment to a later one.  The source and
  target indices, the edge weights and the parameter arrays are written once (or never) and keep their contents across
  every later segment.  Each host stretch's result is, as a term, the reference program's stage of the same name applied
  to the argument arrays, PROVIDED the region before it left in its output what the reference computes at that place:
  those five facts are hypotheses here (they need the exact arithmetic of the extended reals and are proved elsewhere);
  everything in this module holds for any float arithmetic, since both programs apply the same host operations.
-/
import proofs.«144320_j27118423507684_1_alg».proof.Proof.Gen.KernelIdeal.Frame
import proofs.«144320_j27118423507684_1_alg».proof.Proof.Gen.ReferenceIdeal.Read

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen
open Cert.ReferenceIdeal.Read

variable {F : FTy → Type} [FloatOps F]
variable (m : (ℓ : Loc nD τ sig) → Buf (Elt F) ℓ) (ρ : Dev nD → PrngReg) (c : Dev nD)

set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)

/-- A buffer that a stretch of host operations does not write holds after the stretch what it held before it. -/
macro "through_host " ops:ident " from " h:term : tactic =>
  `(tactic| (show StableHlo.after $ops _ _ = _; after_results; exact $h))

/-! ## Buffers written once: the edge indices, the edge weights, the parameters -/

/-- The source indices of the edges (row 0 of the edge list), at the entry of every host stretch that reads them. -/
theorem row_kept :
    W2 m ρ c (Proc.devRef .tc main_v1) = val_main_v1 (F := F) x1
    ∧ W4 m ρ c (Proc.devRef .tc main_v1) = val_main_v1 (F := F) x1
    ∧ W6 m ρ c (Proc.devRef .tc main_v1) = val_main_v1 (F := F) x1
    ∧ W8 m ρ c (Proc.devRef .tc main_v1) = val_main_v1 (F := F) x1
    ∧ W10 m ρ c (Proc.devRef .tc main_v1) = val_main_v1 (F := F) x1 := by
  have h1 : W1 m ρ c (Proc.devRef .tc main_v1) = val_main_v1 (F := F) x1 := by
    show StableHlo.after hostOps0 (W0 m ρ c) _ = _
    after_results
    rfl
  have h2 := (W2_of_ne m ρ c main_v1 (by decide)).trans h1
  have h3 : W3 m ρ c (Proc.devRef .tc main_v1) = val_main_v1 (F := F) x1 := by through_host hostOps1 from h2
  have h4 := (W4_of_ne m ρ c main_v1 (by decide)).trans h3
  have h5 : W5 m ρ c (Proc.devRef .tc main_v1) = val_main_v1 (F := F) x1 := by through_host hostOps2 from h4
  have h6 := (W6_of_ne m ρ c main_v1 (by decide)).trans h5
  have h7 : W7 m ρ c (Proc.devRef .tc main_v1) = val_main_v1 (F := F) x1 := by through_host hostOps3 from h6
  have h8 := (W8_of_ne m ρ c main_v1 (by decide)).trans h7
  have h9 : W9 m ρ c (Proc.devRef .tc main_v1) = val_main_v1 (F := F) x1 := by through_host hostOps4 from h8
  have h10 := (W10_of_ne m ρ c main_v1 (by decide)).trans h9
  exact ⟨h2, h4, h6, h8, h10⟩

/-- The target indices of the edges (row 1 of the edge list), at the entry of every host stretch that reads them. -/
theorem col_kept :
    W2 m ρ c (Proc.devRef .tc main_v3) = val_main_v3 (F := F) x1
    ∧ W4 m ρ c (Proc.devRef .tc main_v3) = val_main_v3 (F := F) x1
    ∧ W8 m ρ c (Proc.devRef .tc main_v3) = val_main_v3 (F := F) x1
    ∧ W10 m ρ c (Proc.devRef .tc main_v3) = val_main_v3 (F := F) x1 := by
  have h1 : W1 m ρ c (Proc.devRef .tc main_v3) = val_main_v3 (F := F) x1 := by
    show StableHlo.after hostOps0 (W0 m ρ c) _ = _
    after_results
    rfl
  have h2 := (W2_of_ne m ρ c main_v3 (by decide)).trans h1
  have h3 : W3 m ρ c (Proc.devRef .tc main_v3) = val_main_v3 (F := F) x1 := by through_host hostOps1 from h2
  have h4 := (W4_of_ne m ρ c main_v3 (by decide)).trans h3
  have h5 : W5 m ρ c (Proc.devRef .tc main_v3) = val_main_v3 (F := F) x1 := by through_host hostOps2 from h4
  have h6 := (W6_of_ne m ρ c main_v3 (by decide)).trans h5
  have h7 : W7 m ρ c (Proc.devRef .tc main_v3) = val_main_v3 (F := F) x1 := by through_host hostOps3 from h6
  have h8 := (W8_of_ne m ρ c main_v3 (by decide)).trans h7
  have h9 : W9 m ρ c (Proc.devRef .tc main_v3) = val_main_v3 (F := F) x1 := by through_host hostOps4 from h8
  have h10 := (W10_of_ne m ρ c main_v3 (by decide)).trans h9
  exact ⟨h2, h4, h8, h10⟩

/-- The edge weights are an argument nothing writes: as launched wherever a host stretch reads them. -/
theorem weight_kept :
    W2 m ρ c (Proc.devRef .tc main_arg2) = x2
    ∧ W6 m ρ c (Proc.devRef .tc main_arg2) = x2
    ∧ W8 m ρ c (Proc.devRef .tc main_arg2) = x2 := by
  have h1 : W1 m ρ c (Proc.devRef .tc main_arg2) = x2 := by
    show StableHlo.after hostOps0 (W0 m ρ c) _ = _
    after_results
  have h2 := (W2_of_ne m ρ c main_arg2 (by decide)).trans h1
  have h3 : W3 m ρ c (Proc.devRef .tc main_arg2) = x2 := by through_host hostOps1 from h2
  have h4 := (W4_of_ne m ρ c main_arg2 (by decide)).trans h3
  have h5 : W5 m ρ c (Proc.devRef .tc main_arg2) = x2 := by through_host hostOps2 from h4
  have h6 := (W6_of_ne m ρ c main_arg2 (by decide)).trans h5
  have h7 : W7 m ρ c (Proc.devRef .tc main_arg2) = x2 := by through_host hostOps3 from h6
  have h8 := (W8_of_ne m ρ c main_arg2 (by decide)).trans h7
  exact ⟨h2, h6, h8⟩

/-- The first layer's inputs — the node features, the weight matrix, the bias — as launched when its dense
    transform is entered. -/
theorem layer1_inputs :
    W3 m ρ c (Proc.devRef .tc main_arg0) = x0
    ∧ W3 m ρ c (Proc.devRef .tc main_arg3) = x3
    ∧ W3 m ρ c (Proc.devRef .tc main_arg4) = x4 := by
  have a1 : W1 m ρ c (Proc.devRef .tc main_arg0) = x0 := by
    show StableHlo.after hostOps0 (W0 m ρ c) _ = _
    after_results
  have a2 := (W2_of_ne m ρ c main_arg0 (by decide)).trans a1
  have a3 : W3 m ρ c (Proc.devRef .tc main_arg0) = x0 := by through_host hostOps1 from a2
  have b1 : W1 m ρ c (Proc.devRef .tc main_arg3) = x3 := by
    show StableHlo.after hostOps0 (W0 m ρ c) _ = _
    after_results
  have b2 := (W2_of_ne m ρ c main_arg3 (by decide)).trans b1
  have b3 : W3 m ρ c (Proc.devRef .tc main_arg3) = x3 := by through_host hostOps1 from b2
  have d1 : W1 m ρ c (Proc.devRef .tc main_arg4) = x4 := by
    show StableHlo.after hostOps0 (W0 m ρ c) _ = _
    after_results
  have d2 := (W2_of_ne m ρ c main_arg4 (by decide)).trans d1
  have d3 : W3 m ρ c (Proc.devRef .tc main_arg4) = x4 := by through_host hostOps1 from d2
  exact ⟨a3, b3, d3⟩

/-- The second layer's weight matrix and bias, as launched when its dense transform is entered. -/
theorem layer2_params :
    W9 m ρ c (Proc.devRef .tc main_arg5) = x5
    ∧ W9 m ρ c (Proc.devRef .tc main_arg6) = x6 := by
  have a1 : W1 m ρ c (Proc.devRef .tc main_arg5) = x5 := by
    show StableHlo.after hostOps0 (W0 m ρ c) _ = _
    after_results
  have a2 := (W2_of_ne m ρ c main_arg5 (by decide)).trans a1
  have a3 : W3 m ρ c (Proc.devRef .tc main_arg5) = x5 := by through_host hostOps1 from a2
  have a4 := (W4_of_ne m ρ c main_arg5 (by decide)).trans a3
  have a5 : W5 m ρ c (Proc.devRef .tc main_arg5) = x5 := by through_host hostOps2 from a4
  have a6 := (W6_of_ne m ρ c main_arg5 (by decide)).trans a5
  have a7 : W7 m ρ c (Proc.devRef .tc main_arg5) = x5 := by through_host hostOps3 from a6
  have a8 := (W8_of_ne m ρ c main_arg5 (by decide)).trans a7
  have a9 : W9 m ρ c (Proc.devRef .tc main_arg5) = x5 := by through_host hostOps4 from a8
  have b1 : W1 m ρ c (Proc.devRef .tc main_arg6) = x6 := by
    show StableHlo.after hostOps0 (W0 m ρ c) _ = _
    after_results
  have b2 := (W2_of_ne m ρ c main_arg6 (by decide)).trans b1
  have b3 : W3 m ρ c (Proc.devRef .tc main_arg6) = x6 := by through_host hostOps1 from b2
  have b4 := (W4_of_ne m ρ c main_arg6 (by decide)).trans b3
  have b5 : W5 m ρ c (Proc.devRef .tc main_arg6) = x6 := by through_host hostOps2 from b4
  have b6 := (W6_of_ne m ρ c main_arg6 (by decide)).trans b5
  have b7 : W7 m ρ c (Proc.devRef .tc main_arg6) = x6 := by through_host hostOps3 from b6
  have b8 := (W8_of_ne m ρ c main_arg6 (by decide)).trans b7
  have b9 : W9 m ρ c (Proc.devRef .tc main_arg6) = x6 := by through_host hostOps4 from b8
  exact ⟨a9, b9⟩

/-! ## The first layer -/

/-- The degrees, laid out as one row, as the first inverse-square-root region finds them. -/
theorem degrees_row :
    W1 m ρ c (Proc.devRef .tc main_v7)
      = shapeCast S1x50000 (val_main_v6 (F := F) x1 x2) shapeCasts_S50000_S1x50000 := by
  show StableHlo.after hostOps0 (W0 m ρ c) (Proc.devRef .tc main_v7) = _
  after_results
  rfl

/-- After the first inverse-square-root region its output buffer holds what the region's write-backs leave. -/
theorem inv_sqrt_out : W2 m ρ c (Proc.devRef .tc main_v8) = (dat0 (V1 m ρ) c).arrAt 1 cfg0.N := W2_arr m ρ c 1

variable (h0 : shapeCast S50000 ((dat0 (V1 m ρ) c).arrAt 1 cfg0.N) shapeCasts_S1x50000_S50000
  = val_main_v10 (F := F) (m ((c : Thread nD τ).loc main_arg1)) (m ((c : Thread nD τ).loc main_arg2)))

set_option maxHeartbeats 4000000 in
include h0 in
/-- The first layer's edge coefficients: the weight of each edge scaled by the inverse square roots of the degrees at
    its two ends. -/
theorem coeff1 : W3 m ρ c (Proc.devRef .tc main_v25) = val_main_v26 (F := F) x1 x2 := by
  show StableHlo.after hostOps1 (W2 m ρ c) (Proc.devRef .tc main_v25) = _
  after_results_simp
  rw [inv_sqrt_out m ρ c, (row_kept m ρ c).1, (col_kept m ρ c).1, (weight_kept m ρ c).1]
  have e : (fun i => shapeCast main_v9.ty.shape ((dat0 (V1 m ρ) c).arrAt 1 cfg0.N) shapeCasts_S1x50000_S50000 i)
      = val_main_v10 (F := F) x1 x2 := h0
  rw [e]
  rfl

include h0 in
/-- The coefficients are not touched by the dense transform's region. -/
theorem coeff1_kept : W4 m ρ c (Proc.devRef .tc main_v25) = val_main_v26 (F := F) x1 x2 :=
  (W4_of_ne m ρ c main_v25 (by decide)).trans (coeff1 m ρ c h0)

/-- After the first dense transform its output buffer holds what the region's write-backs leave. -/
theorem dense1_out : W4 m ρ c (Proc.devRef .tc main_v26) = (dat1 (V3 m ρ) c).arrAt 3 cfg1.N := W4_arr m ρ c 3

variable (h1 : (dat1 (V3 m ρ) c).arrAt 3 cfg1.N = val_main_v30 (F := F) (m ((c : Thread nD τ).loc main_arg0)) (m ((c : Thread nD τ).loc main_arg3)) (m ((c : Thread nD τ).loc main_arg4)))

set_option maxHeartbeats 4000000 in
include h0 h1 in
/-- The first layer's aggregate: the transformed features gathered at the sources, scaled by the coefficients and summed
    at the targets, as the rectifier's region finds it. -/
theorem aggregate1 : W5 m ρ c (Proc.devRef .tc main_v39) = val_main_v43 (F := F) x0 x1 x2 x3 x4 := by
  show StableHlo.after hostOps2 (W4 m ρ c) (Proc.devRef .tc main_v39) = _
  after_results_simp
  rw [dense1_out m ρ c, h1, coeff1_kept m ρ c h0, (row_kept m ρ c).2.1, (col_kept m ρ c).2.1]
  rfl

/-! ## Between the layers -/

/-- After the rectifier's region its output buffer holds what the region's write-backs leave. -/
theorem relu_out : W6 m ρ c (Proc.devRef .tc main_v40) = (dat2 (V5 m ρ) c).arrAt 1 cfg2.N := W6_arr m ρ c 1

variable (h2 : (dat2 (V5 m ρ) c).arrAt 1 cfg2.N
  = val_main_v44 (F := F) (m ((c : Thread nD τ).loc main_arg0)) (m ((c : Thread nD τ).loc main_arg1)) (m ((c : Thread nD τ).loc main_arg2)) (m ((c : Thread nD τ).loc main_arg3)) (m ((c : Thread nD τ).loc main_arg4)))

include h2 in
/-- The rectified first layer reaches the second dense transform unchanged: neither the host operations that recompute
    the degrees and the coefficients nor the second inverse-square-root region write it. -/
theorem hidden_kept : W9 m ρ c (Proc.devRef .tc main_v40) = val_main_v44 (F := F) x0 x1 x2 x3 x4 := by
  have h6 : W6 m ρ c (Proc.devRef .tc main_v40) = val_main_v44 (F := F) x0 x1 x2 x3 x4 := (relu_out m ρ c).trans h2
  have h7 : W7 m ρ c (Proc.devRef .tc main_v40) = val_main_v44 (F := F) x0 x1 x2 x3 x4 := by through_host hostOps3 from h6
  have h8 := (W8_of_ne m ρ c main_v40 (by decide)).trans h7
  show StableHlo.after hostOps4 _ _ = _
  after_results
  exact h8

/-! ## The second layer -/

/-- The degrees again, as one row, as the second inverse-square-root region finds them. -/
theorem degrees_row2 :
    W7 m ρ c (Proc.devRef .tc main_v44)
      = shapeCast S1x50000 (val_main_v47 (F := F) x1 x2) shapeCasts_S50000_S1x50000 := by
  show StableHlo.after hostOps3 (W6 m ρ c) (Proc.devRef .tc main_v44) = _
  after_results
  rw [(row_kept m ρ c).2.2.1, (weight_kept m ρ c).2.1]
  rfl

/-- After the second inverse-square-root region its output buffer holds what the region's write-backs leave. -/
theorem inv_sqrt_out2 : W8 m ρ c (Proc.devRef .tc main_v45) = (dat3 (V7 m ρ) c).arrAt 1 cfg3.N := W8_arr m ρ c 1

variable (h3 : shapeCast S50000 ((dat3 (V7 m ρ) c).arrAt 1 cfg3.N) shapeCasts_S1x50000_S50000
  = val_main_v51 (F := F) (m ((c : Thread nD τ).loc main_arg1)) (m ((c : Thread nD τ).loc main_arg2)))

set_option maxHeartbeats 4000000 in
include h3 in
/-- The second layer's edge coefficients. -/
theorem coeff2 : W9 m ρ c (Proc.devRef .tc main_v62) = val_main_v67 (F := F) x1 x2 := by
  show StableHlo.after hostOps4 (W8 m ρ c) (Proc.devRef .tc main_v62) = _
  after_results_simp
  rw [inv_sqrt_out2 m ρ c, (row_kept m ρ c).2.2.2.1, (col_kept m ρ c).2.2.1, (weight_kept m ρ c).2.2]
  have e : (fun i => shapeCast main_v46.ty.shape ((dat3 (V7 m ρ) c).arrAt 1 cfg3.N) shapeCasts_S1x50000_S50000 i)
      = val_main_v51 (F := F) x1 x2 := h3
  rw [e]
  rfl

include h3 in
/-- The coefficients are not touched by the second dense transform's region. -/
theorem coeff2_kept : W10 m ρ c (Proc.devRef .tc main_v62) = val_main_v67 (F := F) x1 x2 :=
  (W10_of_ne m ρ c main_v62 (by decide)).trans (coeff2 m ρ c h3)

/-- After the second dense transform its output buffer holds what the region's write-backs leave. -/
theorem dense2_out : W10 m ρ c (Proc.devRef .tc main_v63) = (dat4 (V9 m ρ) c).arrAt 3 cfg4.N := W10_arr m ρ c 3

variable (h4 : (dat4 (V9 m ρ) c).arrAt 3 cfg4.N
  = val_main_v71 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))

set_option maxHeartbeats 4000000 in
include h3 h4 in
/-- The program's result: the second layer's aggregate is the reference program's last stage of the argument arrays. -/
theorem result : W11 m ρ c (Proc.devRef .tc main_v76) = val_main_v84 (F := F) x0 x1 x2 x3 x4 x5 x6 := by
  show StableHlo.after hostOps5 (W10 m ρ c) (Proc.devRef .tc main_v76) = _
  after_results_simp
  rw [dense2_out m ρ c, h4, coeff2_kept m ρ c h3, (row_kept m ρ c).2.2.2.2, (col_kept m ρ c).2.2.2]
  rfl

end Cert.KernelIdeal.Fold

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibRowBroadcast.lean ====
/-
  A row `[1, b]` broadcast down the rows of `[a, b]`, read at an index written by coordinates: the counterpart, for a
  bias row added to every row of a matrix, of a column `[a, 1]` broadcast along the rows. General lemma: any element
  type, any extents.
-/
import Idealize.ShloMosaic.Lib.Pipeline.Value
import Idealize.ShloMosaic.Lib.ValueIdx

namespace Cert.LibRowBroadcast

open Idealize.ShloMosaic Idealize.ShloMosaic.ValueIdx

/-- A row `[1, b]` broadcast down the rows of `[a, b]` reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.LibRowBroadcast
-- ==== Proof.LinValue.lean ====
/-
  The two linear regions of the kernel program against the reference's linear layer.

  Each region computes, block of 5000 rows by block, the product of a [50000, 64] array with a [64, 64] weight
  plus a [64] bias added to every row.  On the extended reals, entry (r, j) of the result is
  (∑ q, X (r, q) · W (q, j)) + b j, whether it is computed block by block or on the whole array at once.
-/
import proofs.«144320_j27118423507684_1_alg».proof.Proof.Gen.KernelIdeal.Frame
import proofs.«144320_j27118423507684_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws
import proofs.«144320_j27118423507684_1_alg».proof.Proof.LibPlainDot
import proofs.«144320_j27118423507684_1_alg».proof.Proof.LibRowBroadcast

set_option maxRecDepth 16384

noncomputable section

namespace Cert.Bridge.Lin

open Idealize.ShloMosaic Idealize.ShloMosaic.TcCoe Idealize.ShloMosaic.ValueIdx Idealize.SL.Sem
open Cert.KernelIdeal Cert.KernelIdeal.Gen
open Idealize.ShloMosaic.Pipeline (Dat)

/-! ## The linear layer as one function of the whole arrays -/

/-- Entry `(r, j)` of `X · W + b`: the row of `X` against the column of `W`, plus the bias at `j`. -/
def linAt (X : (⟨2, ![50000, 64]⟩ : Shape).Idx → EReal) (W : (⟨2, ![64, 64]⟩ : Shape).Idx → EReal)
    (b : (⟨1, ![64]⟩ : Shape).Idx → EReal) (r : Fin 50000) (j : Fin 64) : EReal :=
  (∑ q : Fin 64, X (ix2 r q) * W (ix2 q j)) + b (ix1 j)

/-- `X · W + b` on the whole arrays. -/
def lin (X : (⟨2, ![50000, 64]⟩ : Shape).Idx → EReal) (W : (⟨2, ![64, 64]⟩ : Shape).Idx → EReal)
    (b : (⟨1, ![64]⟩ : Shape).Idx → EReal) : (⟨2, ![50000, 64]⟩ : Shape).Idx → EReal :=
  fun i => linAt X W b (i 0) (i 1)

theorem lin_apply (X : (⟨2, ![50000, 64]⟩ : Shape).Idx → EReal) (W : (⟨2, ![64, 64]⟩ : Shape).Idx → EReal)
    (b : (⟨1, ![64]⟩ : Shape).Idx → EReal) (i : (⟨2, ![50000, 64]⟩ : Shape).Idx) :
    lin X W b i = linAt X W b (i 0) (i 1) := rfl

/-! ## The body's arithmetic at an entry of a block -/

/-- Region 1's payload at entry `(p, j)` of the block: the block's row `p` against column `j` of the weight, plus the
    bias at `j` (a change of float format is the identity on the extended reals). -/
theorem pay1_ix2 (x0 : Vec Ideal S5000x64 .f32) (x1 : Vec Ideal S64x64 .f32) (x2 : Vec Ideal S64 .f32)
    (p : Fin 5000) (j : Fin 64) :
    k1_pay1 (F := Ideal) x0 x1 x2 (ix2 p j) = (∑ q : Fin 64, x0 (ix2 p q) * x1 (ix2 q j)) + x2 (ix1 j) := by
  unfold k1_pay1
  refine congrArg₂ (fun a b : EReal => a + b) ?_ ?_
  · exact Cert.PlainDot.matmul_zero_ix2 dot_S5000x64_S64x64_S5000x64_1_0_0_1_n_n rfl none _ _ p j
  · exact (Cert.LibRowBroadcast.broadcastTo_1b_ab_apply _ _ p j).trans (shapeCast_a_1a_apply x2 _ 0 j)

/-- Region 4's payload at entry `(p, j)` of the block: the same, after a cast of the block to its own shape. -/
theorem pay4_ix2 (x0 : Vec Ideal S5000x64 .f32) (x1 : Vec Ideal S64x64 .f32) (x2 : Vec Ideal S64 .f32)
    (p : Fin 5000) (j : Fin 64) :
    k4_pay1 (F := Ideal) x0 x1 x2 (ix2 p j) = (∑ q : Fin 64, x0 (ix2 p q) * x1 (ix2 q j)) + x2 (ix1 j) := by
  unfold k4_pay1
  refine congrArg₂ (fun a b : EReal => a + b) ?_ ?_
  · refine (Cert.PlainDot.matmul_zero_ix2 dot_S5000x64_S64x64_S5000x64_1_0_0_1_n_n rfl none _ _ p j).trans ?_
    refine Finset.sum_congr rfl fun q _ => congrArg (fun a : EReal => a * x1 (ix2 q j)) ?_
    exact congrFun (shapeCast_self x0 _) (ix2 p q)
  · exact (Cert.LibRowBroadcast.broadcastTo_1b_ab_apply _ _ p j).trans (shapeCast_a_1a_apply x2 _ 0 j)

/-! ## The reference's linear layer is that function -/

/-- The reference's `dot_general` plus the bias broadcast down the rows is `lin`, entry by entry. -/
theorem ref_eq_lin (X : (⟨2, ![50000, 64]⟩ : Shape).Idx → EReal) (W : (⟨2, ![64, 64]⟩ : Shape).Idx → EReal)
    (b : (⟨1, ![64]⟩ : Shape).Idx → EReal) :
    Cert.ReferenceIdeal.Read.val_main_v30 (F := Ideal) X W b = lin X W b := by
  funext i
  obtain ⟨r, j, rfl⟩ : ∃ (r : Fin 50000) (j : Fin 64), i = ix2 r j := ⟨i 0, i 1, eq_ix2 i⟩
  refine (Cert.ReferenceIdeal.Read.val_main_v30_apply (F := Ideal) X W b (ix2 r j)).trans ?_
  show Cert.ReferenceIdeal.Read.val_main_v27 (F := Ideal) X W (ix2 r j)
      + Cert.ReferenceIdeal.Read.val_main_v29 (F := Ideal) b (ix2 r j) = linAt X W b r j
  unfold linAt
  refine congrArg₂ (fun a b : EReal => a + b) ?_ ?_
  · refine (Cert.ReferenceIdeal.Read.val_main_v27_apply X W (ix2 r j)).trans ?_
    refine Finset.sum_congr rfl fun q _ => ?_
    have el : Cert.ReferenceIdeal.Read.lidx_main_v27 (ix2 r j) q = ix2 r q :=
      funext fun a => Fin.ext (by match a with | ⟨0, _⟩ => rfl | ⟨1, _⟩ => rfl)
    have er : Cert.ReferenceIdeal.Read.ridx_main_v27 (ix2 r j) q = ix2 q j :=
      funext fun a => Fin.ext (by match a with | ⟨0, _⟩ => rfl | ⟨1, _⟩ => rfl)
    rw [el, er]
  · refine (Cert.ReferenceIdeal.Read.val_main_v29_apply (F := Ideal) b (ix2 r j)).trans ?_
    refine (Cert.ReferenceIdeal.Read.val_main_v28_apply (F := Ideal) b _).trans ?_
    exact congrArg b (funext fun a => Fin.ext (by match a with | ⟨0, _⟩ => rfl))

/-! ## The blocks a point reads and writes -/

theorem hz2 : (![0, 0] : Fin 2 → Nat) = fun _ => 0 := funext fun a => by fin_cases a <;> rfl
theorem hz1 : (![0] : Fin 1 → Nat) = fun _ => 0 := funext fun a => by fin_cases a <;> rfl

/-! # Region 1 -/
/-- Region 1's printed index maps, decided over the ten grid points: the row blocks of the input and of the output move
    with the point, the weight and the bias are staged whole. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- Entry `(p, q)` of the input's block at point `t` is entry `(5000 t + p, q)` of the input array. -/
theorem iblk1_0_ix2 (c : Dev nD) (t : Fin cfg1.N) (p : Fin 5000) (q : Fin 64) (h : t.val * 5000 + p.val < 50000) :
    (iblk1 (F := Ideal) V c 0 t : Vec Ideal S5000x64 .f32) (ix2 p q)
      = (V c main_arg0 : S50000x64.Idx → EReal) (ix2 ⟨t.val * 5000 + p.val, h⟩ q) := by
  obtain ⟨e0, e1, -⟩ := idx_facts1 t
  show (V c main_arg0 : S50000x64.Idx → EReal) (((cfg1.win 0).blk t).view.emb (ix2 p q)) = _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * q.val = q.val; omega

/-- The weight's block at any point is the weight. -/
theorem iblk1_1_ix2 (c : Dev nD) (t : Fin cfg1.N) (q : Fin 64) (j : Fin 64) :
    (iblk1 (F := Ideal) V c 1 t : Vec Ideal S64x64 .f32) (ix2 q j) = (V c main_arg3 : S64x64.Idx → EReal) (ix2 q j) := by
  obtain ⟨-, -, e2, e3, -⟩ := idx_facts1 t
  show (V c main_arg3 : S64x64.Idx → EReal) (((cfg1.win 1).blk t).view.emb (ix2 q j)) = _
  refine congrArg _ (funext fun a => Fin.ext ?_)
  match a with
  | ⟨0, _⟩ => show win1_1.index t (0 : Fin 2) * 64 + 1 * q.val = q.val; omega
  | ⟨1, _⟩ => show win1_1.index t (1 : Fin 2) * 64 + 1 * j.val = j.val; omega

/-- The bias's block at any point is the bias. -/
theorem iblk1_2_ix1 (c : Dev nD) (t : Fin cfg1.N) (j : Fin 64) :
    (iblk1 (F := Ideal) V c 2 t : Vec Ideal S64 .f32) (ix1 j) = (V c main_arg4 : S64.Idx → EReal) (ix1 j) := by
  obtain ⟨-, -, -, -, e4, -⟩ := idx_facts1 t
  show (V c main_arg4 : S64.Idx → EReal) (((cfg1.win 2).blk t).view.emb (ix1 j)) = _
  refine congrArg _ (funext fun a => Fin.ext ?_)
  match a with
  | ⟨0, _⟩ => show win1_2.index t (0 : Fin 1) * 64 + 1 * j.val = j.val; omega

/-- WHAT POINT `t` WRITES BACK in region 1 is block `t` of `lin` of the arrays as the region finds them. -/
theorem flushed1_eq (c : Dev nD) (t : Fin cfg1.N) :
    (dat1 (F := Ideal) V c).flushed 3 t
      = ((cfg1.win 3).blk t).view.read (Elt Ideal) (lin (V c main_arg0) (V c main_arg3) (V c main_arg4)) := by
  show (cfg1.win 3).cut (grid1.coords t) ((dat1 (F := Ideal) V c).after 3 t) = _
  rw [after1_3]
  unfold out1_3
  rw [View.canon_unit_zero hz2]
  simp only [View.ld_unit_zero (S := S5000x64) hz2, View.ld_unit_zero (S := S64x64) hz2, View.ld_unit_zero (S := S64) hz1]
  obtain ⟨e0, e1, e2, e3, e4, e5, e6⟩ := idx_facts1 t
  funext y
  have hp : (y 0).val < 5000 := (y 0).isLt
  have hj : (y 1).val < 64 := (y 1).isLt
  have hN : cfg1.N = 10 := N_1
  have ht : t.val < 10 := by have := t.isLt; omega
  have hr : t.val * 5000 + (y 0).val < 50000 := by omega
  show k1_pay1 (F := Ideal) (iblk1 V c 0 t) (iblk1 V c 1 t) (iblk1 V c 2 t) ((win1 3).xinj (grid1.coords t) y)
    = lin (V c main_arg0) (V c main_arg3) (V c main_arg4) (((cfg1.win 3).blk t).view.emb y)
  have ey : (win1 3).xinj (grid1.coords t) y = (ix2 ⟨(y 0).val, hp⟩ ⟨(y 1).val, hj⟩ : S5000x64.Idx) :=
    funext fun a => Fin.ext (by match a with | ⟨0, _⟩ => rfl | ⟨1, _⟩ => rfl)
  have eo : ((cfg1.win 3).blk t).view.emb y = (ix2 ⟨t.val * 5000 + (y 0).val, hr⟩ ⟨(y 1).val, hj⟩ : S50000x64.Idx) := by
    funext a; apply Fin.ext
    match a with
    | ⟨0, _⟩ => show win1_3.index t (0 : Fin 2) * 5000 + 1 * (y 0).val = t.val * 5000 + (y 0).val; omega
    | ⟨1, _⟩ => show win1_3.index t (1 : Fin 2) * 64 + 1 * (y 1).val = (y 1).val; omega
  refine (congrArg (k1_pay1 (F := Ideal) (iblk1 V c 0 t) (iblk1 V c 1 t) (iblk1 V c 2 t)) ey).trans ?_
  refine (pay1_ix2 (iblk1 V c 0 t) (iblk1 V c 1 t) (iblk1 V c 2 t) ⟨(y 0).val, hp⟩ ⟨(y 1).val, hj⟩).trans ?_
  refine Eq.trans ?_ (congrArg (lin (V c main_arg0) (V c main_arg3) (V c main_arg4)) eo).symm
  show _ = linAt (V c main_arg0) (V c main_arg3) (V c main_arg4) ⟨t.val * 5000 + (y 0).val, hr⟩ ⟨(y 1).val, hj⟩
  unfold linAt
  refine congrArg₂ (fun a b : EReal => a + b) (Finset.sum_congr rfl fun q _ => ?_) (iblk1_2_ix1 V c t ⟨(y 1).val, hj⟩)
  exact congrArg₂ (fun a b : EReal => a * b) (iblk1_0_ix2 V c t ⟨(y 0).val, hp⟩ q hr) (iblk1_1_ix2 V c t q ⟨(y 1).val, hj⟩)

/-- An index of the output array is in point `t`'s block iff each coordinate is in the block's range on its axis. -/
theorem mem_blk1 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v26).slice (win1_3.rect t)).set ↔ _
  rw [View.set_slice_whole, Rect.mem_set_unit]
  exact Iff.rfl

/-- The ten row blocks fill the output array: row `r` is in the block of point `r / 5000`. -/
theorem cover1 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by omega⟩, rfl⟩
  obtain ⟨-, -, -, -, -, e5, e6⟩ := idx_facts1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- REGION 1's output array after the region: the reference's linear layer of the arrays as the region finds them. -/
theorem region1_final (V : (c : Dev nD) → (b : Ref sig .tc) → Buf (Elt Ideal) ((c : Thread nD τ).loc b)) (c : Dev nD) :
    (dat1 (F := Ideal) V c).arrAt 3 cfg1.N
      = Cert.ReferenceIdeal.Read.val_main_v30 (F := Ideal) (V c main_arg0) (V c main_arg3) (V c main_arg4) := by
  rw [ref_eq_lin]
  exact (dat1 (F := Ideal) V c).arrAt_eq_of_cover 3 (lin (V c main_arg0) (V c main_arg3) (V c main_arg4))
    (fun t _ => flushed1_eq V c t) cover1

/-! # Region 4 -/
/-- Region 4's printed index maps, decided over the ten grid points: the row blocks of the input and of the output move
    with the point, the weight and the bias are staged whole. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- Entry `(p, q)` of the input's block at point `t` is entry `(5000 t + p, q)` of the input array. -/
theorem iblk4_0_ix2 (c : Dev nD) (t : Fin cfg4.N) (p : Fin 5000) (q : Fin 64) (h : t.val * 5000 + p.val < 50000) :
    (iblk4 (F := Ideal) V c 0 t : Vec Ideal S5000x64 .f32) (ix2 p q)
      = (V c main_v40 : S50000x64.Idx → EReal) (ix2 ⟨t.val * 5000 + p.val, h⟩ q) := by
  obtain ⟨e0, e1, -⟩ := idx_facts4 t
  show (V c main_v40 : S50000x64.Idx → EReal) (((cfg4.win 0).blk t).view.emb (ix2 p q)) = _
  refine congrArg _ (funext fun a => Fin.ext ?_)
  match a with
  | ⟨0, _⟩ => show win4_0.index t (0 : Fin 2) * 5000 + 1 * p.val = t.val * 5000 + p.val; omega
  | ⟨1, _⟩ => show win4_0.index t (1 : Fin 2) * 64 + 1 * q.val = q.val; omega

/-- The weight's block at any point is the weight. -/
theorem iblk4_1_ix2 (c : Dev nD) (t : Fin cfg4.N) (q : Fin 64) (j : Fin 64) :
    (iblk4 (F := Ideal) V c 1 t : Vec Ideal S64x64 .f32) (ix2 q j) = (V c main_arg5 : S64x64.Idx → EReal) (ix2 q j) := by
  obtain ⟨-, -, e2, e3, -⟩ := idx_facts4 t
  show (V c main_arg5 : S64x64.Idx → EReal) (((cfg4.win 1).blk t).view.emb (ix2 q j)) = _
  refine congrArg _ (funext fun a => Fin.ext ?_)
  match a with
  | ⟨0, _⟩ => show win4_1.index t (0 : Fin 2) * 64 + 1 * q.val = q.val; omega
  | ⟨1, _⟩ => show win4_1.index t (1 : Fin 2) * 64 + 1 * j.val = j.val; omega

/-- The bias's block at any point is the bias. -/
theorem iblk4_2_ix1 (c : Dev nD) (t : Fin cfg4.N) (j : Fin 64) :
    (iblk4 (F := Ideal) V c 2 t : Vec Ideal S64 .f32) (ix1 j) = (V c main_arg6 : S64.Idx → EReal) (ix1 j) := by
  obtain ⟨-, -, -, -, e4, -⟩ := idx_facts4 t
  show (V c main_arg6 : S64.Idx → EReal) (((cfg4.win 2).blk t).view.emb (ix1 j)) = _
  refine congrArg _ (funext fun a => Fin.ext ?_)
  match a with
  | ⟨0, _⟩ => show win4_2.index t (0 : Fin 1) * 64 + 1 * j.val = j.val; omega

/-- WHAT POINT `t` WRITES BACK in region 4 is block `t` of `lin` of the arrays as the region finds them. -/
theorem flushed4_eq (c : Dev nD) (t : Fin cfg4.N) :
    (dat4 (F := Ideal) V c).flushed 3 t
      = ((cfg4.win 3).blk t).view.read (Elt Ideal) (lin (V c main_v40) (V c main_arg5) (V c main_arg6)) := by
  show (cfg4.win 3).cut (grid4.coords t) ((dat4 (F := Ideal) V c).after 3 t) = _
  rw [after4_3]
  unfold out4_3
  rw [View.canon_unit_zero hz2]
  simp only [View.ld_unit_zero (S := S5000x64) hz2, View.ld_unit_zero (S := S64x64) hz2, View.ld_unit_zero (S := S64) hz1]
  obtain ⟨e0, e1, e2, e3, e4, e5, e6⟩ := idx_facts4 t
  funext y
  have hp : (y 0).val < 5000 := (y 0).isLt
  have hj : (y 1).val < 64 := (y 1).isLt
  have hN : cfg4.N = 10 := N_4
  have ht : t.val < 10 := by have := t.isLt; omega
  have hr : t.val * 5000 + (y 0).val < 50000 := by omega
  show k4_pay1 (F := Ideal) (iblk4 V c 0 t) (iblk4 V c 1 t) (iblk4 V c 2 t) ((win4 3).xinj (grid4.coords t) y)
    = lin (V c main_v40) (V c main_arg5) (V c main_arg6) (((cfg4.win 3).blk t).view.emb y)
  have ey : (win4 3).xinj (grid4.coords t) y = (ix2 ⟨(y 0).val, hp⟩ ⟨(y 1).val, hj⟩ : S5000x64.Idx) :=
    funext fun a => Fin.ext (by match a with | ⟨0, _⟩ => rfl | ⟨1, _⟩ => rfl)
  have eo : ((cfg4.win 3).blk t).view.emb y = (ix2 ⟨t.val * 5000 + (y 0).val, hr⟩ ⟨(y 1).val, hj⟩ : S50000x64.Idx) := by
    funext a; apply Fin.ext
    match a with
    | ⟨0, _⟩ => show win4_3.index t (0 : Fin 2) * 5000 + 1 * (y 0).val = t.val * 5000 + (y 0).val; omega
    | ⟨1, _⟩ => show win4_3.index t (1 : Fin 2) * 64 + 1 * (y 1).val = (y 1).val; omega
  refine (congrArg (k4_pay1 (F := Ideal) (iblk4 V c 0 t) (iblk4 V c 1 t) (iblk4 V c 2 t)) ey).trans ?_
  refine (pay4_ix2 (iblk4 V c 0 t) (iblk4 V c 1 t) (iblk4 V c 2 t) ⟨(y 0).val, hp⟩ ⟨(y 1).val, hj⟩).trans ?_
  refine Eq.trans ?_ (congrArg (lin (V c main_v40) (V c main_arg5) (V c main_arg6)) eo).symm
  show _ = linAt (V c main_v40) (V c main_arg5) (V c main_arg6) ⟨t.val * 5000 + (y 0).val, hr⟩ ⟨(y 1).val, hj⟩
  unfold linAt
  refine congrArg₂ (fun a b : EReal => a + b) (Finset.sum_congr rfl fun q _ => ?_) (iblk4_2_ix1 V c t ⟨(y 1).val, hj⟩)
  exact congrArg₂ (fun a b : EReal => a * b) (iblk4_0_ix2 V c t ⟨(y 0).val, hp⟩ q hr) (iblk4_1_ix2 V c t q ⟨(y 1).val, hj⟩)

/-- An index of the output array is in point `t`'s block iff each coordinate is in the block's range on its axis. -/
theorem mem_blk4 (t : Fin cfg4.N) (i : S50000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v63).slice (win4_3.rect t)).set ↔ _
  rw [View.set_slice_whole, Rect.mem_set_unit]
  exact Iff.rfl

/-- The ten row blocks fill the output array: row `r` is in the block of point `r / 5000`. -/
theorem cover4 (i : S50000x64.Idx) :
    ∃ t : Fin cfg4.N, (cfg4.win 3).flush t = true ∧ i ∈ ((cfg4.win 3).blk t).view.set := by
  have hi0 : (i 0).val < 50000 := (i 0).isLt
  have hi1 : (i 1).val < 64 := (i 1).isLt
  have hN : cfg4.N = 10 := N_4
  obtain ⟨t, ht⟩ : ∃ t : Fin cfg4.N, t.val = (i 0).val / 5000 := ⟨⟨(i 0).val / 5000, by omega⟩, rfl⟩
  obtain ⟨-, -, -, -, -, e5, e6⟩ := idx_facts4 t
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- REGION 4's output array after the region: the reference's linear layer of the arrays as the region finds them. -/
theorem region4_final (V : (c : Dev nD) → (b : Ref sig .tc) → Buf (Elt Ideal) ((c : Thread nD τ).loc b)) (c : Dev nD) :
    (dat4 (F := Ideal) V c).arrAt 3 cfg4.N
      = Cert.ReferenceIdeal.Read.val_main_v30 (F := Ideal) (V c main_v40) (V c main_arg5) (V c main_arg6) := by
  rw [ref_eq_lin]
  exact (dat4 (F := Ideal) V c).arrAt_eq_of_cover 3 (lin (V c main_v40) (V c main_arg5) (V c main_arg6))
    (fun t _ => flushed4_eq V c t) cover4

end Cert.Bridge.Lin

end
-- ==== Proof.PointwiseValue.lean ====
/-
  The three pointwise regions of the kernel's program, each read as ONE function of the array it finds.

  Regions 0 and 3 (the degree normalisation, once per layer) have a grid of one point whose input and output blocks
  are the whole [1, 50000] arrays: the output array ends at the payload of the whole input array, entry by entry
  rsqrt(x) where x > 0 and 0 elsewhere. Region 2 (the rectifier) cuts the [50000, 64] array into ten [5000, 64]
  blocks of rows; input and output windows share the index map t ↦ (t, 0), the payload is elementwise, so the output
  array ends at max(x, 0) of the whole input array; row r is covered by point r / 5000.

  Last, the normalisation between its two reshapes [50000] → [1, 50000] → [50000] is, entry by entry, the
  reference's select(deg > 0, rsqrt deg, 0): at the extended reals the kernel's rsqrt and the host's are one
  function and both zero arrays read the zero word.
-/
import proofs.«144320_j27118423507684_1_alg».proof.Proof.Gen.KernelIdeal.Frame
import proofs.«144320_j27118423507684_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge.Pointwise

open Idealize.ShloMosaic Idealize.ShloMosaic.TcCoe Idealize.ShloMosaic.ValueIdx Idealize.SL.Sem Cert.KernelIdeal Cert.KernelIdeal.Gen
open Idealize.ShloMosaic.Pipeline (Dat)

/-! ## The degree normalisation (regions 0 and 3) -/

/-- The normalisation's payload at one entry: rsqrt of the entry where it is positive, zero elsewhere. -/
theorem k0_pay1_apply (x : Vec Ideal S1x50000 .f32) (y : S1x50000.Idx) :
    k0_pay1 (F := Ideal) x y
      = Scalar.select (FloatOps.cmpf .ogt (x y) (FloatOps.ofBits (F := Ideal) .f32 0x00000000#32)) (Ideal.rsqrt (x y)) (FloatOps.ofBits (F := Ideal) .f32 0x00000000#32) := by
  unfold k0_pay1
  rw [shapeCast_self]
  rfl

/-- The second layer's copy of the payload is the same function. -/
theorem k3_pay1_apply (x : Vec Ideal S1x50000 .f32) (y : S1x50000.Idx) :
    k3_pay1 (F := Ideal) x y
      = Scalar.select (FloatOps.cmpf .ogt (x y) (FloatOps.ofBits (F := Ideal) .f32 0x00000000#32)) (Ideal.rsqrt (x y)) (FloatOps.ofBits (F := Ideal) .f32 0x00000000#32) := by
  unfold k3_pay1
  rw [shapeCast_self]
  rfl

theorem hz : (![0, 0] : Fin 2 → Nat) = fun _ => 0 := funext fun a => by fin_cases a <;> rfl

/-- Region 0's two windows sit at block (0, 0) at the grid's one point. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

theorem idx_facts3 : ∀ t : Fin cfg3.N, win3_0.index t (0 : Fin 2) = 0 ∧ win3_0.index t (1 : Fin 2) = 0
    ∧ win3_1.index t (0 : Fin 2) = 0 ∧ win3_1.index t (1 : Fin 2) = 0 :=
  (by decide +kernel : ∀ t : Fin grid3.N, _)

section Region0
variable (V : (c : Dev nD) → (b : Ref sig .tc) → Buf (Elt Ideal) ((c : Thread nD τ).loc b))

/-- Region 0. What the one point writes back is the payload of the whole input array, read through the (whole-array) block. -/
theorem flushed0_eq (c : Dev nD) (t : Fin cfg0.N) :
    (dat0 (F := Ideal) V c).flushed 1 t = ((cfg0.win 1).blk t).view.read (Elt Ideal) (k0_pay1 (F := Ideal) (V c main_v7)) := by
  show (cfg0.win 1).cut (grid0.coords t) ((dat0 (F := Ideal) V c).after 1 t) = _
  rw [after0_1]
  unfold out0_1
  rw [View.canon_unit_zero hz]
  simp only [View.ld_unit_zero (S := S1x50000) hz]
  obtain ⟨e0, e1, e2, e3⟩ := idx_facts0 t
  funext j
  show k0_pay1 (F := Ideal) (iblk0 V c 0 t) j = k0_pay1 (F := Ideal) (V c main_v7) (((cfg0.win 1).blk t).view.emb j)
  rw [k0_pay1_apply, k0_pay1_apply]
  have h0 : ((cfg0.win 0).blk t).view.emb j = ((cfg0.win 1).blk t).view.emb j := by
    funext a; apply Fin.ext
    match a with
    | ⟨0, _⟩ => show win0_0.index t (0 : Fin 2) * 1 + 1 * (j 0).val = win0_1.index t (0 : Fin 2) * 1 + 1 * (j 0).val; omega
    | ⟨1, _⟩ => show win0_0.index t (1 : Fin 2) * 50000 + 1 * (j 1).val = win0_1.index t (1 : Fin 2) * 50000 + 1 * (j 1).val; omega
  have hx : (iblk0 V c 0 t : Vec Ideal S1x50000 .f32) j = (V c main_v7 : Vec Ideal S1x50000 .f32) (((cfg0.win 1).blk t).view.emb j) := by
    show (V c main_v7 : Vec Ideal S1x50000 .f32) (((cfg0.win 0).blk t).view.emb j) = _
    rw [h0]
  rw [hx]

theorem mem_blk0 (t : Fin cfg0.N) (i : S1x50000.Idx) :
    i ∈ ((cfg0.win 1).blk t).view.set ↔ ∀ a : Fin 2, win0_1.index t a * S1x50000.size a ≤ (i a).val ∧ (i a).val < win0_1.index t a * S1x50000.size a + S1x50000.size a := by
  show i ∈ ((View.whole main_v8).slice (win0_1.rect t)).set ↔ _
  rw [View.set_slice_whole, Rect.mem_set_unit]
  exact Iff.rfl

theorem cover0 (i : S1x50000.Idx) : ∃ t : Fin cfg0.N, (cfg0.win 1).flush t = true ∧ i ∈ ((cfg0.win 1).blk t).view.set := by
  have hi0 : (i 0).val < 1 := (i 0).isLt
  have hi1 : (i 1).val < 50000 := (i 1).isLt
  obtain ⟨e0, e1, e2, e3⟩ := idx_facts0 t0_0
  refine ⟨t0_0, flush0_1 t0_0, ?_⟩
  rw [mem_blk0]
  intro a
  match a with
  | ⟨0, _⟩ => show win0_1.index t0_0 (0 : Fin 2) * 1 ≤ (i 0).val ∧ (i 0).val < win0_1.index t0_0 (0 : Fin 2) * 1 + 1; omega
  | ⟨1, _⟩ => show win0_1.index t0_0 (1 : Fin 2) * 50000 ≤ (i 1).val ∧ (i 1).val < win0_1.index t0_0 (1 : Fin 2) * 50000 + 50000; omega

theorem region0_final (c : Dev nD) :
    (dat0 (F := Ideal) V c).arrAt 1 cfg0.N = k0_pay1 (F := Ideal) (V c main_v7) :=
  (dat0 (F := Ideal) V c).arrAt_eq_of_cover 1 (k0_pay1 (F := Ideal) (V c main_v7)) (fun t _ => flushed0_eq V c t) cover0

end Region0

section Region3
variable (V : (c : Dev nD) → (b : Ref sig .tc) → Buf (Elt Ideal) ((c : Thread nD τ).loc b))

/-- Region 3, the second layer's copy of region 0. What the one point writes back is the payload of the whole input array, read through the (whole-array) block. -/
theorem flushed3_eq (c : Dev nD) (t : Fin cfg3.N) :
    (dat3 (F := Ideal) V c).flushed 1 t = ((cfg3.win 1).blk t).view.read (Elt Ideal) (k3_pay1 (F := Ideal) (V c main_v44)) := by
  show (cfg3.win 1).cut (grid3.coords t) ((dat3 (F := Ideal) V c).after 1 t) = _
  rw [after3_1]
  unfold out3_1
  rw [View.canon_unit_zero hz]
  simp only [View.ld_unit_zero (S := S1x50000) hz]
  obtain ⟨e0, e1, e2, e3⟩ := idx_facts3 t
  funext j
  show k3_pay1 (F := Ideal) (iblk3 V c 0 t) j = k3_pay1 (F := Ideal) (V c main_v44) (((cfg3.win 1).blk t).view.emb j)
  rw [k3_pay1_apply, k3_pay1_apply]
  have h0 : ((cfg3.win 0).blk t).view.emb j = ((cfg3.win 1).blk t).view.emb j := by
    funext a; apply Fin.ext
    match a with
    | ⟨0, _⟩ => show win3_0.index t (0 : Fin 2) * 1 + 1 * (j 0).val = win3_1.index t (0 : Fin 2) * 1 + 1 * (j 0).val; omega
    | ⟨1, _⟩ => show win3_0.index t (1 : Fin 2) * 50000 + 1 * (j 1).val = win3_1.index t (1 : Fin 2) * 50000 + 1 * (j 1).val; omega
  have hx : (iblk3 V c 0 t : Vec Ideal S1x50000 .f32) j = (V c main_v44 : Vec Ideal S1x50000 .f32) (((cfg3.win 1).blk t).view.emb j) := by
    show (V c main_v44 : Vec Ideal S1x50000 .f32) (((cfg3.win 0).blk t).view.emb j) = _
    rw [h0]
  rw [hx]

theorem mem_blk3 (t : Fin cfg3.N) (i : S1x50000.Idx) :
    i ∈ ((cfg3.win 1).blk t).view.set ↔ ∀ a : Fin 2, win3_1.index t a * S1x50000.size a ≤ (i a).val ∧ (i a).val < win3_1.index t a * S1x50000.size a + S1x50000.size a := by
  show i ∈ ((View.whole main_v45).slice (win3_1.rect t)).set ↔ _
  rw [View.set_slice_whole, Rect.mem_set_unit]
  exact Iff.rfl

theorem cover3 (i : S1x50000.Idx) : ∃ t : Fin cfg3.N, (cfg3.win 1).flush t = true ∧ i ∈ ((cfg3.win 1).blk t).view.set := by
  have hi0 : (i 0).val < 1 := (i 0).isLt
  have hi1 : (i 1).val < 50000 := (i 1).isLt
  obtain ⟨e0, e1, e2, e3⟩ := idx_facts3 t3_0
  refine ⟨t3_0, flush3_1 t3_0, ?_⟩
  rw [mem_blk3]
  intro a
  match a with
  | ⟨0, _⟩ => show win3_1.index t3_0 (0 : Fin 2) * 1 ≤ (i 0).val ∧ (i 0).val < win3_1.index t3_0 (0 : Fin 2) * 1 + 1; omega
  | ⟨1, _⟩ => show win3_1.index t3_0 (1 : Fin 2) * 50000 ≤ (i 1).val ∧ (i 1).val < win3_1.index t3_0 (1 : Fin 2) * 50000 + 50000; omega

theorem region3_final (c : Dev nD) :
    (dat3 (F := Ideal) V c).arrAt 1 cfg3.N = k3_pay1 (F := Ideal) (V c main_v44) :=
  (dat3 (F := Ideal) V c).arrAt_eq_of_cover 1 (k3_pay1 (F := Ideal) (V c main_v44)) (fun t _ => flushed3_eq V c t) cover3

end Region3

/-! ## The rectifier (region 2) -/

/-- The rectifier's payload at one entry: the larger of the entry and zero. -/
theorem k2_pay1_apply (x : Vec Ideal S5000x64 .f32) (y : S5000x64.Idx) :
    k2_pay1 (F := Ideal) x y = FloatOps.maximumf (x y) (FloatOps.ofBits (F := Ideal) .f32 0x00000000#32) := by
  unfold k2_pay1
  rw [shapeCast_self]
  rfl

/-- The reference's rectifier at one entry: the same maximum against its broadcast zero. -/
theorem relu_ref_apply (A : FVec Ideal S50000x64 .f32) (i : S50000x64.Idx) :
    maximumf A (Cert.ReferenceIdeal.Read.val_main_call1_v0 (F := Ideal)) i
      = FloatOps.maximumf (A i) (FloatOps.ofBits (F := Ideal) .f32 0x00000000#32) := by
  show FloatOps.maximumf (A i) (Cert.ReferenceIdeal.Read.val_main_call1_v0 (F := Ideal) i) = _
  rw [Cert.ReferenceIdeal.Read.val_main_call1_v0_apply, Cert.ReferenceIdeal.Read.val_main_call1_cst_apply]

/-- Region 2's input and output windows move together: at point t both sit at block (t, 0). -/
theorem idx_facts2 : ∀ t : Fin cfg2.N, win2_0.index t (0 : Fin 2) = win2_1.index t (0 : Fin 2)
    ∧ win2_0.index t (1 : Fin 2) = win2_1.index t (1 : Fin 2)
    ∧ win2_1.index t (0 : Fin 2) = t.val ∧ win2_1.index t (1 : Fin 2) = 0 :=
  (by decide +kernel : ∀ t : Fin grid2.N, _)

section Region2
variable (V : (c : Dev nD) → (b : Ref sig .tc) → Buf (Elt Ideal) ((c : Thread nD τ).loc b))

/-- What point t writes back is block t of the rectified whole input array. -/
theorem flushed2_eq (c : Dev nD) (t : Fin cfg2.N) :
    (dat2 (F := Ideal) V c).flushed 1 t
      = ((cfg2.win 1).blk t).view.read (Elt Ideal) (maximumf (F := Ideal) (s := S50000x64) (φ := .f32) (V c main_v39) (Cert.ReferenceIdeal.Read.val_main_call1_v0 (F := Ideal))) := by
  show (cfg2.win 1).cut (grid2.coords t) ((dat2 (F := Ideal) V c).after 1 t) = _
  rw [after2_1]
  unfold out2_1
  rw [View.canon_unit_zero hz]
  simp only [View.ld_unit_zero (S := S5000x64) hz]
  obtain ⟨e0, e1, e2, e3⟩ := idx_facts2 t
  funext j
  show k2_pay1 (F := Ideal) (iblk2 V c 0 t) j
    = maximumf (F := Ideal) (s := S50000x64) (φ := .f32) (V c main_v39) (Cert.ReferenceIdeal.Read.val_main_call1_v0 (F := Ideal)) (((cfg2.win 1).blk t).view.emb j)
  rw [k2_pay1_apply, relu_ref_apply]
  have h0 : ((cfg2.win 0).blk t).view.emb j = ((cfg2.win 1).blk t).view.emb j := by
    funext a; apply Fin.ext
    match a with
    | ⟨0, _⟩ => show win2_0.index t (0 : Fin 2) * 5000 + 1 * (j 0).val = win2_1.index t (0 : Fin 2) * 5000 + 1 * (j 0).val; omega
    | ⟨1, _⟩ => show win2_0.index t (1 : Fin 2) * 64 + 1 * (j 1).val = win2_1.index t (1 : Fin 2) * 64 + 1 * (j 1).val; omega
  have hx : (iblk2 V c 0 t : Vec Ideal S5000x64 .f32) j = (V c main_v39 : Vec Ideal S50000x64 .f32) (((cfg2.win 1).blk t).view.emb j) := by
    show (V c main_v39 : Vec Ideal S50000x64 .f32) (((cfg2.win 0).blk t).view.emb j) = _
    rw [h0]
  rw [hx]

theorem mem_blk2 (t : Fin cfg2.N) (i : S50000x64.Idx) :
    i ∈ ((cfg2.win 1).blk t).view.set ↔ ∀ a : Fin 2, win2_1.index t a * S5000x64.size a ≤ (i a).val ∧ (i a).val < win2_1.index t a * S5000x64.size a + S5000x64.size a := by
  show i ∈ ((View.whole main_v40).slice (win2_1.rect t)).set ↔ _
  rw [View.set_slice_whole, Rect.mem_set_unit]
  exact Iff.rfl

/-- Row r of the array lies in the block of point r / 5000. -/
theorem cover2 (i : S50000x64.Idx) : ∃ t : Fin cfg2.N, (cfg2.win 1).flush t = true ∧ i ∈ ((cfg2.win 1).blk t).view.set := by
  have hi0 : (i 0).val < 50000 := (i 0).isLt
  have hi1 : (i 1).val < 64 := (i 1).isLt
  have hN : grid2.N = 10 := N_2
  obtain ⟨t, ht⟩ : ∃ t : Fin cfg2.N, t.val = (i 0).val / 5000 :=
    ⟨⟨(i 0).val / 5000, by show (i 0).val / 5000 < grid2.N; rw [hN]; omega⟩, rfl⟩
  obtain ⟨e0, e1, e2, e3⟩ := idx_facts2 t
  refine ⟨t, flush2_1 t, ?_⟩
  rw [mem_blk2]
  intro a
  match a with
  | ⟨0, _⟩ => show win2_1.index t (0 : Fin 2) * 5000 ≤ (i 0).val ∧ (i 0).val < win2_1.index t (0 : Fin 2) * 5000 + 5000; omega
  | ⟨1, _⟩ => show win2_1.index t (1 : Fin 2) * 64 ≤ (i 1).val ∧ (i 1).val < win2_1.index t (1 : Fin 2) * 64 + 64; omega

theorem region2_final (c : Dev nD) :
    (dat2 (F := Ideal) V c).arrAt 1 cfg2.N
      = maximumf (F := Ideal) (s := S50000x64) (φ := .f32) (V c main_v39) (Cert.ReferenceIdeal.Read.val_main_call1_v0 (F := Ideal)) :=
  (dat2 (F := Ideal) V c).arrAt_eq_of_cover 1 (maximumf (F := Ideal) (s := S50000x64) (φ := .f32) (V c main_v39) (Cert.ReferenceIdeal.Read.val_main_call1_v0 (F := Ideal)))
    (fun t _ => flushed2_eq V c t) cover2

end Region2

/-! ## The normalisation through its two reshapes against the reference's select -/

/-- The kernel's degree normalisation through its two reshapes is the reference's: both are, entry by entry,
    rsqrt(deg) where deg > 0 and 0 elsewhere. -/
theorem dis0 (deg : FVec Ideal S50000 .f32) :
    shapeCast S50000 (k0_pay1 (F := Ideal) (shapeCast S1x50000 deg shapeCasts_S50000_S1x50000)) shapeCasts_S1x50000_S50000
      = select (cmpf .ogt deg (Cert.ReferenceIdeal.Read.val_main_v7 (F := Ideal))) (Host.rsqrt (F := Ideal) deg)
          (Cert.ReferenceIdeal.Read.val_main_call0_v1 (F := Ideal)) := by
  funext j
  obtain ⟨i, rfl⟩ : ∃ i : Fin 50000, j = ix1 i := ⟨j 0, eq_ix1 j⟩
  rw [shapeCast_1a_a_apply, k0_pay1_apply, shapeCast_a_1a_apply]
  rw [select_apply, cmpf_apply, Cert.ReferenceIdeal.Read.val_main_v7_apply, Cert.ReferenceIdeal.Read.val_main_cst_0_apply,
    Cert.ReferenceIdeal.Read.val_main_call0_v1_apply, Cert.ReferenceIdeal.Read.val_main_call0_v0_apply,
    Cert.ReferenceIdeal.Read.val_main_cst_1_apply]
  rfl

/-- The second layer's normalisation, against the reference's second select. -/
theorem dis3 (deg : FVec Ideal S50000 .f32) :
    shapeCast S50000 (k3_pay1 (F := Ideal) (shapeCast S1x50000 deg shapeCasts_S50000_S1x50000)) shapeCasts_S1x50000_S50000
      = select (cmpf .ogt deg (Cert.ReferenceIdeal.Read.val_main_v48 (F := Ideal))) (Host.rsqrt (F := Ideal) deg)
          (Cert.ReferenceIdeal.Read.val_main_call2_v1 (F := Ideal)) := by
  funext j
  obtain ⟨i, rfl⟩ : ∃ i : Fin 50000, j = ix1 i := ⟨j 0, eq_ix1 j⟩
  rw [shapeCast_1a_a_apply, k3_pay1_apply, shapeCast_a_1a_apply]
  rw [select_apply, cmpf_apply, Cert.ReferenceIdeal.Read.val_main_v48_apply, Cert.ReferenceIdeal.Read.val_main_cst_9_apply,
    Cert.ReferenceIdeal.Read.val_main_call2_v1_apply, Cert.ReferenceIdeal.Read.val_main_call2_v0_apply,
    Cert.ReferenceIdeal.Read.val_main_cst_10_apply]
  rfl

end Cert.Bridge.Pointwise

end
-- ==== Proof.Bridge.lean ====
/-
  The kernel program's result is the reference program's last stage of the argument arrays, on the extended reals.

  Both programs apply the same host operations; they differ in three places, each used twice.  The kernel reshapes the
  degrees to one row, takes rsqrt where the degree is positive and zero elsewhere in a kernel region, and reshapes back;
  the reference does the same selection on the vector.  The kernel computes  X · W + b  in ten blocks of 5000 rows with
  the operands rounded to a narrower float format on the way in — the identity on the extended reals — where the
  reference takes one product of the whole arrays.  The kernel's rectifier works block by block, the reference's on the
  whole array.  Entry by entry these are the same functions, so each region leaves in its output what the reference
  computes there, and the chain of host operations around them carries the equality to the result.
-/
import proofs.«144320_j27118423507684_1_alg».proof.Proof.Fold
import proofs.«144320_j27118423507684_1_alg».proof.Proof.LinValue
import proofs.«144320_j27118423507684_1_alg».proof.Proof.PointwiseValue

set_option maxRecDepth 16384

noncomputable section

namespace Cert.Bridge

open Idealize.ShloMosaic Idealize.ShloMosaic.TcCoe Idealize.SL.Sem
open Cert.KernelIdeal Cert.KernelIdeal.Gen
open Cert.ReferenceIdeal.Read

variable (m : (ℓ : Loc nD τ sig) → Buf (Elt Ideal) ℓ) (ρ : Dev nD → PrngReg) (c : Dev nD)

/-- The first inverse-square-root region, between its two reshapes, leaves the reference's normalised degrees. -/
theorem inv_sqrt1 :
    shapeCast S50000 ((dat0 (V1 m ρ) c).arrAt 1 cfg0.N) shapeCasts_S1x50000_S50000
      = val_main_v10 (F := Ideal) (m ((c : Thread nD τ).loc main_arg1)) (m ((c : Thread nD τ).loc main_arg2)) := by
  rw [Pointwise.region0_final (V1 m ρ) c]
  show shapeCast S50000 (k0_pay1 (F := Ideal) (W1 m ρ c (Proc.devRef .tc main_v7))) shapeCasts_S1x50000_S50000 = _
  rw [Fold.degrees_row m ρ c, Pointwise.dis0]
  rfl

/-- The first dense transform leaves the reference's  X · W₁ + b₁. -/
theorem dense1 :
    (dat1 (V3 m ρ) c).arrAt 3 cfg1.N = val_main_v30 (F := Ideal) (m ((c : Thread nD τ).loc main_arg0)) (m ((c : Thread nD τ).loc main_arg3)) (m ((c : Thread nD τ).loc main_arg4)) := by
  rw [Lin.region1_final (V3 m ρ) c]
  show val_main_v30 (F := Ideal) (W3 m ρ c (Proc.devRef .tc main_arg0)) (W3 m ρ c (Proc.devRef .tc main_arg3))
    (W3 m ρ c (Proc.devRef .tc main_arg4)) = _
  rw [(Fold.layer1_inputs m ρ c).1, (Fold.layer1_inputs m ρ c).2.1, (Fold.layer1_inputs m ρ c).2.2]

/-- The rectifier's region leaves the reference's rectified first layer. -/
theorem rectified :
    (dat2 (V5 m ρ) c).arrAt 1 cfg2.N
      = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [Pointwise.region2_final (V5 m ρ) c]
  show maximumf (F := Ideal) (s := S50000x64) (φ := .f32) (W5 m ρ c (Proc.devRef .tc main_v39))
    (val_main_call1_v0 (F := Ideal)) = _
  rw [Fold.aggregate1 m ρ c (inv_sqrt1 m ρ c) (dense1 m ρ c)]
  rfl

/-- The second inverse-square-root region, between its two reshapes, leaves the reference's normalised degrees again. -/
theorem inv_sqrt2 :
    shapeCast S50000 ((dat3 (V7 m ρ) c).arrAt 1 cfg3.N) shapeCasts_S1x50000_S50000
      = val_main_v51 (F := Ideal) (m ((c : Thread nD τ).loc main_arg1)) (m ((c : Thread nD τ).loc main_arg2)) := by
  rw [Pointwise.region3_final (V7 m ρ) c]
  show shapeCast S50000 (k3_pay1 (F := Ideal) (W7 m ρ c (Proc.devRef .tc main_v44))) shapeCasts_S1x50000_S50000 = _
  rw [Fold.degrees_row2 m ρ c, Pointwise.dis3]
  rfl

/-- The second dense transform leaves the reference's  H · W₂ + b₂  of the rectified first layer H. -/
theorem dense2 :
    (dat4 (V9 m ρ) c).arrAt 3 cfg4.N
      = val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [Lin.region4_final (V9 m ρ) c]
  show val_main_v30 (F := Ideal) (W9 m ρ c (Proc.devRef .tc main_v40)) (W9 m ρ c (Proc.devRef .tc main_arg5))
    (W9 m ρ c (Proc.devRef .tc main_arg6)) = _
  rw [Fold.hidden_kept m ρ c (rectified m ρ c), (Fold.layer2_params m ρ c).1, (Fold.layer2_params m ρ c).2]
  rfl

/-- The kernel program's result buffer ends at the reference's last stage of the argument arrays. -/
theorem kernel_value :
    W11 m ρ c (Proc.devRef .tc main_v76)
      = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  Fold.result m ρ c (inv_sqrt2 m ρ c) (dense2 m ρ c)

end Cert.Bridge

end
-- ==== Proof.lean ====
/-
  Two graph-convolution layers with degree normalisation, computed by a kernel program and by a reference program.

  With row / col the source / target node of each edge and w its weight, both programs compute
      deg = ∑ of w over the edges leaving each node,     d = rsqrt(deg) where deg > 0, and 0 elsewhere,
      n_e = d[row e] · w_e · d[col e],                   H = X · W + b,
      out[v] = ∑ over the edges e with col e = v of  n_e · H[row e],
  once on the input features, then, after a rectifier, on the first layer's output.  The two programs apply the same
  gathers, products and scatter-sums in the same order; the kernel program replaces the selection of rsqrt(deg), the
  dense transform and the rectifier by kernel regions (the transform and the rectifier cut into ten blocks of rows,
  the transform's operands rounded to a narrower format, which is the identity on the extended reals).  Each region
  leaves what the reference computes at that place (Bridge), the host operations around them are the same terms
  (Fold), so the kernel program's result is the reference's last stage of the argument arrays, and that is what the
  reference's own run ends at.  No algebraic law is needed beyond the plain-sum form of a matrix product, and the
  precondition is never opened: the equality holds on all extended reals.

  The three frames are the programs' runs with the result dropped; the idealization rewrote no operation, so the
  preservation claim is trivial.
-/
import proofs.«144320_j27118423507684_1_alg».proof.Defs
import proofs.«144320_j27118423507684_1_alg».proof.Proof.Gen.Kernel
import proofs.«144320_j27118423507684_1_alg».proof.Proof.Gen.Kernel.Skeleton
import proofs.«144320_j27118423507684_1_alg».proof.Proof.Gen.Kernel.Launch
import proofs.«144320_j27118423507684_1_alg».proof.Proof.Gen.Kernel.Points
import proofs.«144320_j27118423507684_1_alg».proof.Proof.Gen.Kernel.Frame
import proofs.«144320_j27118423507684_1_alg».proof.Proof.Gen.KernelIdeal
import proofs.«144320_j27118423507684_1_alg».proof.Proof.Gen.KernelIdeal.Skeleton
import proofs.«144320_j27118423507684_1_alg».proof.Proof.Gen.KernelIdeal.Launch
import proofs.«144320_j27118423507684_1_alg».proof.Proof.Gen.KernelIdeal.Points
import proofs.«144320_j27118423507684_1_alg».proof.Proof.Gen.KernelIdeal.Frame
import proofs.«144320_j27118423507684_1_alg».proof.Proof.Gen.ReferenceIdeal
import proofs.«144320_j27118423507684_1_alg».proof.Proof.Gen.Pre_finite_inputs
import proofs.«144320_j27118423507684_1_alg».proof.Proof.Gen.ReferenceIdeal.Run
import proofs.«144320_j27118423507684_1_alg».proof.Proof.Gen.ReferenceIdeal.Read
import proofs.«144320_j27118423507684_1_alg».proof.Proof.KernelRun
import proofs.«144320_j27118423507684_1_alg».proof.Proof.Bridge
import Idealize.ShloMosaic.Adequacy
import Idealize.ShloMosaic.Init

noncomputable section

namespace Cert.Proof

open Idealize.ShloMosaic Idealize.SL.Sem

/-- The word-level kernel program runs, and its arguments end as launched. -/
theorem frame_kernel : @Cert.frame_Kernel Cert.Kernel.Gen.facts Cert.Pre_finite_inputs.Gen.facts :=
  fun m ρ _ => Cert.Kernel.Gen.frame m ρ

/-- The idealized kernel program runs, and its arguments end as launched. -/
theorem frame_kernelIdeal : @Cert.frame_KernelIdeal Cert.KernelIdeal.Gen.facts Cert.Pre_finite_inputs.Gen.facts :=
  fun m ρ _ => Cert.KernelIdeal.Gen.frame m ρ

/-- The reference program runs, and its arguments end as launched: its run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories that agree on the arguments both programs end with the reference's last stage of those arguments in
    their result buffers. -/
theorem algebraic :
    @Cert.algebraic_KernelIdeal_ReferenceIdeal Cert.KernelIdeal.Gen.facts Cert.ReferenceIdeal.Gen.facts
      Cert.Pre_finite_inputs.Gen.facts := by
  intro m ρ m' ρ' _ hagree
  refine ⟨fun c => Cert.ReferenceIdeal.Read.val_main_v84 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.Bridge.kernel_value m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v84_eq]
    obtain ⟨e0, e1, e2, e3, e4, e5, e6⟩ := hagree c
    rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
